-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 103
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S1700000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x64, .f32⟩
  | .hbm, ⟨85, _⟩ => ⟨S1700000x1, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x64, .f32⟩
  | .hbm, ⟨95, _⟩ => ⟨S1700000x64, .f32⟩
  | .hbm, ⟨96, _⟩ => ⟨S1700000x64, .f32⟩
  | .hbm, ⟨97, _⟩ => ⟨S_, .f32⟩
  | .hbm, ⟨98, _⟩ => ⟨S100000x64, .f32⟩
  | .hbm, ⟨99, _⟩ => ⟨S1700000x1, .i32⟩
  | .hbm, ⟨100, _⟩ => ⟨S100000x64, .f32⟩
  | .hbm, ⟨101, _⟩ => ⟨S1x64, .f32⟩
  | .hbm, ⟨102, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x64, .f32⟩
  | .hbm, ⟨95, _⟩ => ⟨S1700000x1, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x64, .f32⟩
  | .hbm, ⟨105, _⟩ => ⟨S1700000x64, .f32⟩
  | .hbm, ⟨106, _⟩ => ⟨S1700000x64, .f32⟩
  | .hbm, ⟨107, _⟩ => ⟨S_, .f32⟩
  | .hbm, ⟨108, _⟩ => ⟨S100000x64, .f32⟩
  | .hbm, ⟨109, _⟩ => ⟨S1700000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Named.lean ====
/-
  The kernel program's run, with its result array named.

  The program is ten segments: host stretches and four grid regions in turn. Every weakly fair execution goes
  through them in order and ends with every buffer that outlives a region at the contents of the last boundary
  (`W10`: the launch memory folded through each stretch's operations and each region's write-backs). Read at the
  result buffer this names what the program returns; read at an argument it is the launch contents, since nothing
  writes an argument. Stated at any float instance.
-/
import proofs.«126798_j54726473286012_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, its result array at the last boundary's
    contents and its arguments as launched. -/
theorem run : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Named

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«126798_j54726473286012_1_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«126798_j54726473286012_1_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibBiasRelu.lean ====
/-
  A bias added along the last axis and the result clamped below at zero, read at an entry.

  `biasRelu a b` is the function `(r, k) ↦ max (a (r, k) + b k) 0` on the extended reals, for a matrix `a : [M, N]` and a
  vector `b : [N]` (the zero is kept as the float word `0x00000000` read at the ideal values, the same word on every
  side, so it is never evaluated). Two programs compute it:
  · a kernel body that casts the bias vector `[N]` to the row `[1, N]`, broadcasts the row over the `M` rows, adds,
    and takes `arith.maximumf` with a splat scalar zero (`kernel_apply`, read at `(p, q)`);
  · the host's `jnp` form, the bias vector placed as the one row of `[1, N]` and repeated over the rows by two
    `broadcast_in_dim`s, an add, and a `maximum` with a scalar zero broadcast to `[M, N]` (`host_eq`, as whole
    functions; for `N ≠ 1`, as the library's broadcast lemma asks which case it is).
  The host's bias broadcast is `Cert.Lib.DenseLayer.bias_apply` (this file imports that one, and through it the plain
  matrix product's file). Imports only the Idealize library besides.
-/
import proofs.«126798_j54726473286012_1_alg».proof.Proof.LibDenseLayer
import Idealize.ShloMosaic.Lib.ValueLayout
import Idealize.ShloMosaic.Lib.Pipeline.Value
import Idealize.ShloMosaic.Lib.ValueIdx
import Idealize.ShloMosaic.PureOps.Ideal.Laws

noncomputable section

namespace Cert.Lib.BiasRelu

open Idealize.ShloMosaic Idealize.ShloMosaic.ValueIdx

/-- `(r, k) ↦ max (a (r, k) + b k) 0` on the extended reals. -/
def biasRelu {M N : ℕ} (a : (⟨2, ![M, N]⟩ : Shape).Idx → EReal) (b : (⟨1, ![N]⟩ : Shape).Idx → EReal) :
    (⟨2, ![M, N]⟩ : Shape).Idx → EReal :=
  fun i => max (a i + b (ix1 (i 1))) (Ideal.ofBits .f32 0x00000000#32)

theorem biasRelu_apply {M N : ℕ} (a : (⟨2, ![M, N]⟩ : Shape).Idx → EReal) (b : (⟨1, ![N]⟩ : Shape).Idx → EReal)
    (p : Fin M) (q : Fin N) :
    biasRelu a b (ix2 p q) = max (a (ix2 p q) + b (ix1 q)) (Ideal.ofBits .f32 0x00000000#32) := rfl

/-- A kernel's form read at `(p, q)`: the bias vector cast to a row, the row broadcast over the rows, an add, and the
    maximum with a splat zero. -/
theorem kernel_apply {M N : ℕ} (x0 : FVec Ideal ⟨2, ![M, N]⟩ .f32) (x1 : FVec Ideal ⟨1, ![N]⟩ .f32)
    (h0 : (⟨2, ![M, N]⟩ : Shape).ShapeCasts ⟨2, ![M, N]⟩) (h1 : (⟨1, ![N]⟩ : Shape).ShapeCasts ⟨2, ![1, N]⟩)
    (h2 : (⟨2, ![1, N]⟩ : Shape).Broadcasts ⟨2, ![M, N]⟩) (p : Fin M) (q : Fin N) :
    maximumf (addf (shapeCast ⟨2, ![M, N]⟩ x0 h0) (broadcastTo ⟨2, ![M, N]⟩ (shapeCast ⟨2, ![1, N]⟩ x1 h1) h2))
        (broadcast ⟨2, ![M, N]⟩ (Scalar.ofBits (F := Ideal) .f32 0x00000000#32)) (ix2 p q)
      = biasRelu x0 x1 (ix2 p q) := by
  rw [maximumf_apply, addf_apply, shapeCast_self, broadcastTo_1b_ab_apply, shapeCast_a_1a_apply, broadcast_apply]
  rfl

/-- The host's form, as a whole function: two `broadcast_in_dim`s of the bias, an add, and the maximum with a scalar
    zero broadcast to the matrix's shape. -/
theorem host_eq {M N : ℕ} (hN : N ≠ 1) (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = biasRelu a b := by
  funext i
  obtain ⟨p, q, rfl⟩ : ∃ (p : Fin M) (q : Fin N), i = ix2 p q := ⟨i 0, i 1, eq_ix2 i⟩
  rw [maximumf_apply, addf_apply, Cert.Lib.DenseLayer.bias_apply hN,
    broadcastInDim_apply ![] h0 _ (ix2 p q) ix0 (fun a => a.elim0), constant_apply]
  rfl

end Cert.Lib.BiasRelu

end
-- ==== Proof.LibRowBias.lean ====
/-
  A bias held as a ONE-ROW array `[1, N]` and repeated over the rows of a matrix `[M, N]`, on the extended reals.

  `rowBias a row` is `(r, k) ↦ a (r, k) + row (0, k)`; `rowBiasRelu a row` clamps that below at zero (the zero kept as
  the float word `0x00000000` read at the ideal values, the same word on every side, never evaluated). This is the
  form a kernel meets when the host has already reshaped the bias vector `[N]` to `[1, N]` and the body loads that
  row as a block: `kernel_add_apply` / `kernel_relu_apply` read the body's `shape_cast` (to its own shape),
  `vector.broadcast` of the row, `addf` (and `maximumf` with a splat scalar zero) at an entry. Against it, the host's
  `jnp` form over the bias VECTOR — two `broadcast_in_dim`s, an add (and a `maximum` with a broadcast scalar zero) —
  is the same function of the vector cast to one row: `bias_add_eq_row`, and `biasRelu_eq_row` over
  `Cert.Lib.BiasRelu.biasRelu` (whose `host_eq` is the host's clamp form). Only `bias_add_eq_row` has a side condition,
  `N ≠ 1`: the library's lemma for reading a `broadcast_in_dim` at an index treats an axis of extent one apart, and
  the hypothesis says the feature axis is not such an axis. Imports `LibBiasRelu` (and through it `LibDenseLayer`,
  `LibPlainDot`) and the Idealize library.
-/
import proofs.«126798_j54726473286012_1_alg».proof.Proof.LibBiasRelu
import Idealize.ShloMosaic.Lib.ValueLayout
import Idealize.ShloMosaic.Lib.Pipeline.Value
import Idealize.ShloMosaic.Lib.ValueIdx
import Idealize.ShloMosaic.PureOps.Ideal.Laws

noncomputable section

namespace Cert.Lib.RowBias

open Idealize.ShloMosaic Idealize.ShloMosaic.ValueIdx Cert.Lib.BiasRelu

/-- A matrix plus a one-row array repeated over its rows, clamped below at zero: entry `(r, k)` is
    `max (a (r, k) + row (0, k)) 0`. -/
def rowBiasRelu {M N : ℕ} (a : (⟨2, ![M, N]⟩ : Shape).Idx → EReal) (row : (⟨2, ![1, N]⟩ : Shape).Idx → EReal) :
    (⟨2, ![M, N]⟩ : Shape).Idx → EReal :=
  fun i => max (a i + row (ix2 (0 : Fin 1) (i 1))) (Ideal.ofBits .f32 0x00000000#32)

/-- A matrix plus a one-row array repeated over its rows: entry `(r, k)` is `a (r, k) + row (0, k)`. -/
def rowBias {M N : ℕ} (a : (⟨2, ![M, N]⟩ : Shape).Idx → EReal) (row : (⟨2, ![1, N]⟩ : Shape).Idx → EReal) :
    (⟨2, ![M, N]⟩ : Shape).Idx → EReal :=
  fun i => a i + row (ix2 (0 : Fin 1) (i 1))

theorem rowBiasRelu_apply {M N : ℕ} (a : (⟨2, ![M, N]⟩ : Shape).Idx → EReal) (row : (⟨2, ![1, N]⟩ : Shape).Idx → EReal)
    (p : Fin M) (q : Fin N) :
    rowBiasRelu a row (ix2 p q) = max (a (ix2 p q) + row (ix2 (0 : Fin 1) q)) (Ideal.ofBits .f32 0x00000000#32) := rfl

theorem rowBias_apply {M N : ℕ} (a : (⟨2, ![M, N]⟩ : Shape).Idx → EReal) (row : (⟨2, ![1, N]⟩ : Shape).Idx → EReal)
    (p : Fin M) (q : Fin N) : rowBias a row (ix2 p q) = a (ix2 p q) + row (ix2 (0 : Fin 1) q) := rfl

/-- A kernel's form read at `(p, q)`: the loaded block and the loaded row each cast to its own shape, the row
    broadcast over the rows, an add. -/
theorem kernel_add_apply {M N : ℕ} (x0 : FVec Ideal ⟨2, ![M, N]⟩ .f32) (row : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (h2 : (⟨2, ![1, N]⟩ : Shape).Broadcasts ⟨2, ![M, N]⟩) (p : Fin M) (q : Fin N) :
    addf (shapeCast ⟨2, ![M, N]⟩ x0 h0) (broadcastTo ⟨2, ![M, N]⟩ (shapeCast ⟨2, ![1, N]⟩ row h1) h2) (ix2 p q)
      = rowBias x0 row (ix2 p q) := by
  rw [addf_apply, shapeCast_self, broadcastTo_1b_ab_apply, shapeCast_self]
  rfl

/-- The same with the maximum against a splat scalar zero after the add. -/
theorem kernel_relu_apply {M N : ℕ} (x0 : FVec Ideal ⟨2, ![M, N]⟩ .f32) (row : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (h2 : (⟨2, ![1, N]⟩ : Shape).Broadcasts ⟨2, ![M, N]⟩) (p : Fin M) (q : Fin N) :
    maximumf (addf (shapeCast ⟨2, ![M, N]⟩ x0 h0) (broadcastTo ⟨2, ![M, N]⟩ (shapeCast ⟨2, ![1, N]⟩ row h1) h2))
        (broadcast ⟨2, ![M, N]⟩ (Scalar.ofBits (F := Ideal) .f32 0x00000000#32)) (ix2 p q)
      = rowBiasRelu x0 row (ix2 p q) := by
  rw [maximumf_apply, addf_apply, shapeCast_self, broadcastTo_1b_ab_apply, shapeCast_self, broadcast_apply]
  rfl

/-- The bias vector added along the last axis and clamped, against the same vector cast to a one-row array. -/
theorem biasRelu_eq_row {M N : ℕ} (a : (⟨2, ![M, N]⟩ : Shape).Idx → EReal) (b : (⟨1, ![N]⟩ : Shape).Idx → EReal)
    (h : (⟨1, ![N]⟩ : Shape).ShapeCasts ⟨2, ![1, N]⟩) :
    biasRelu a b = rowBiasRelu a (shapeCast ⟨2, ![1, N]⟩ b h) := by
  funext i
  obtain ⟨p, q, rfl⟩ : ∃ (p : Fin M) (q : Fin N), i = ix2 p q := ⟨i 0, i 1, eq_ix2 i⟩
  show max (a (ix2 p q) + b (ix1 q)) _ = max (a (ix2 p q) + shapeCast ⟨2, ![1, N]⟩ b h (ix2 (0 : Fin 1) q)) _
  rw [shapeCast_a_1a_apply]

/-- The host's bias vector broadcast over the rows (two `broadcast_in_dim`s) and added, against the vector cast to a
    one-row array, repeated and added. -/
theorem bias_add_eq_row {M N : ℕ} (hN : N ≠ 1) (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h : (⟨1, ![N]⟩ : Shape).ShapeCasts ⟨2, ![1, N]⟩) :
    addf a (broadcastInDim ⟨2, ![M, N]⟩ ![0, 1] h2 (broadcastInDim ⟨2, ![1, N]⟩ ![1] h1 b))
      = rowBias a (shapeCast ⟨2, ![1, N]⟩ b h) := by
  funext i
  obtain ⟨p, q, rfl⟩ : ∃ (p : Fin M) (q : Fin N), i = ix2 p q := ⟨i 0, i 1, eq_ix2 i⟩
  rw [addf_apply, Cert.Lib.DenseLayer.bias_apply hN]
  show a (ix2 p q) + b (ix1 q) = a (ix2 p q) + shapeCast ⟨2, ![1, N]⟩ b h (ix2 (0 : Fin 1) q)
  rw [shapeCast_a_1a_apply]

end Cert.Lib.RowBias

end
-- ==== Proof.Bodies.lean ====
/-
  What each of the four kernel bodies stores, as a function of the blocks it loads, at the ideal values.

  The three product bodies round their operands to bf16 on the way into the matrix unit; on the extended reals a
  change of float format is the identity and the accumulator starts at zero, so the stored block is the plain
  product, rows times columns, of what was loaded. Bodies 1 and 2 first add the bias, a one-row block repeated
  over the rows, and clamp the sum below at zero; body 3 only adds the bias row. Each is stated over variables of
  the blocks' literal shapes, entry by entry and then as one function.
-/
import proofs.«126798_j54726473286012_1_alg».proof.Proof.Gen.KernelIdeal.Skeleton
import proofs.«126798_j54726473286012_1_alg».proof.Proof.LibMatProd
import proofs.«126798_j54726473286012_1_alg».proof.Proof.LibRowBias
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Idealize.ShloMosaic Idealize.ShloMosaic.ValueIdx Cert.KernelIdeal Cert.KernelIdeal.Gen
open Cert.Lib.MatProd

export Cert.Lib.RowBias (rowBiasRelu rowBias)

/-! ## The two contraction records: one contracted axis, the left operand's columns against the right's rows -/

theorem d128_l0 (j : S10000x128.Idx) (q : dot_S10000x128_S128x128_S10000x128_1_0_0_1_n_n.contr.Idx) : (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem d128_l1 (j : S10000x128.Idx) (q : dot_S10000x128_S128x128_S10000x128_1_0_0_1_n_n.contr.Idx) : (dot_S10000x128_S128x128_S10000x128_1_0_0_1_n_n.lhsIdx j q 1).val = (q ⟨0, by decide⟩).val :=
  dot_S10000x128_S128x128_S10000x128_1_0_0_1_n_n.lhsIdx_val_of_single rfl j q
theorem d128_r0 (j : S10000x128.Idx) (q : dot_S10000x128_S128x128_S10000x128_1_0_0_1_n_n.contr.Idx) : (dot_S10000x128_S128x128_S10000x128_1_0_0_1_n_n.rhsIdx j q 0).val = (q ⟨0, by decide⟩).val :=
  dot_S10000x128_S128x128_S10000x128_1_0_0_1_n_n.rhsIdx_val_of_single rfl j q
theorem d128_r1 (j : S10000x128.Idx) (q : dot_S10000x128_S128x128_S10000x128_1_0_0_1_n_n.contr.Idx) : (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem d64_l0 (j : S10000x64.Idx) (q : dot_S10000x128_S128x64_S10000x64_1_0_0_1_n_n.contr.Idx) : (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem d64_l1 (j : S10000x64.Idx) (q : dot_S10000x128_S128x64_S10000x64_1_0_0_1_n_n.contr.Idx) : (dot_S10000x128_S128x64_S10000x64_1_0_0_1_n_n.lhsIdx j q 1).val = (q ⟨0, by decide⟩).val :=
  dot_S10000x128_S128x64_S10000x64_1_0_0_1_n_n.lhsIdx_val_of_single rfl j q
theorem d64_r0 (j : S10000x64.Idx) (q : dot_S10000x128_S128x64_S10000x64_1_0_0_1_n_n.contr.Idx) : (dot_S10000x128_S128x64_S10000x64_1_0_0_1_n_n.rhsIdx j q 0).val = (q ⟨0, by decide⟩).val :=
  dot_S10000x128_S128x64_S10000x64_1_0_0_1_n_n.rhsIdx_val_of_single rfl j q
theorem d64_r1 (j : S10000x64.Idx) (q : dot_S10000x128_S128x64_S10000x64_1_0_0_1_n_n.contr.Idx) : (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## Body 0: the product of the loaded blocks -/

theorem pay0 (x0 : Vec Ideal S10000x128 .f32) (x1 : Vec Ideal S128x128 .f32) :
    k0_pay1 (F := Ideal) x0 x1 = prod x0 x1 := by
  unfold k0_pay1
  exact matmul_zero_eq_prod dot_S10000x128_S128x128_S10000x128_1_0_0_1_n_n rfl rfl d128_l0 d128_l1 d128_r0 d128_r1 none
    (truncf .bf16 x0 bitsLt_bf16_f32) (truncf .bf16 x1 bitsLt_bf16_f32)

/-! ## Bodies 1 and 2: bias row, clamp at zero, product -/

/-- The left operand of body 1's and body 2's product, at an entry: the loaded block plus the bias row, clamped. -/
theorem hidden_apply (x0 : Vec Ideal S10000x128 .f32) (row : Vec Ideal S1x128 .f32) (p : Fin 10000) (k : Fin 128) :
    maximumf (addf (shapeCast S10000x128 x0 shapeCasts_S10000x128_S10000x128)
        (broadcastTo S10000x128 (shapeCast S1x128 row shapeCasts_S1x128_S1x128) broadcasts_S1x128_S10000x128))
      (broadcast S10000x128 (Scalar.ofBits (F := Ideal) .f32 0x00000000#32)) (ix2 p k)
      = rowBiasRelu x0 row (ix2 p k) :=
  Cert.Lib.RowBias.kernel_relu_apply x0 row _ _ _ p k

theorem pay1 (x0 : Vec Ideal S10000x128 .f32) (row : Vec Ideal S1x128 .f32) (w : Vec Ideal S128x128 .f32) :
    k1_pay1 (F := Ideal) x0 row w = prod (rowBiasRelu x0 row) w := by
  unfold k1_pay1
  refine (matmul_zero_eq_prod dot_S10000x128_S128x128_S10000x128_1_0_0_1_n_n rfl rfl d128_l0 d128_l1 d128_r0 d128_r1 none _ _).trans ?_
  funext j
  obtain ⟨p, q, rfl⟩ : ∃ (p : Fin 10000) (q : Fin 128), j = ix2 p q := ⟨j 0, j 1, eq_ix2 j⟩
  rw [prod_apply, prod_apply]
  refine Finset.sum_congr rfl fun k _ => ?_
  exact congrArg (· * w (ix2 k q)) (hidden_apply x0 row p k)

theorem pay2 (x0 : Vec Ideal S10000x128 .f32) (row : Vec Ideal S1x128 .f32) (w : Vec Ideal S128x64 .f32) :
    k2_pay1 (F := Ideal) x0 row w = prod (rowBiasRelu x0 row) w := by
  unfold k2_pay1
  refine (matmul_zero_eq_prod dot_S10000x128_S128x64_S10000x64_1_0_0_1_n_n rfl rfl d64_l0 d64_l1 d64_r0 d64_r1 none _ _).trans ?_
  funext j
  obtain ⟨p, q, rfl⟩ : ∃ (p : Fin 10000) (q : Fin 64), j = ix2 p q := ⟨j 0, j 1, eq_ix2 j⟩
  rw [prod_apply, prod_apply]
  refine Finset.sum_congr rfl fun k _ => ?_
  exact congrArg (· * w (ix2 k q)) (hidden_apply x0 row p k)

/-! ## Body 3: the bias row added -/

theorem pay3 (x0 : Vec Ideal S10000x64 .f32) (row : Vec Ideal S1x64 .f32) :
    k3_pay1 (F := Ideal) x0 row = rowBias x0 row := by
  unfold k3_pay1
  funext j
  obtain ⟨p, q, rfl⟩ : ∃ (p : Fin 10000) (q : Fin 64), j = ix2 p q := ⟨j 0, j 1, eq_ix2 j⟩
  exact Cert.Lib.RowBias.kernel_add_apply x0 row _ _ _ p q

end Cert.KernelIdeal.Bodies

end
-- ==== Proof.Region0.lean ====
/-
  Region 0, the first dense product: its output array after the grid, as one function of the arrays it is entered with.

  The grid has ten points. Point `t` loads rows `t·10000 … t·10000 + 9999` of the left array and the whole right
  array, and writes back the product of the two as rows `t·10000 …` of the output. A row of a product depends on
  the left operand through that row only, so block `t` of the output is block `t` of the whole product; the ten
  blocks tile the output's rows (row `r` lies in block `r / 10000`), hence the output array ends as the whole
  product of the two entry arrays. Stated for any entry contents `V`.
-/
import proofs.«126798_j54726473286012_1_alg».proof.Proof.Gen.KernelIdeal.Frame
import proofs.«126798_j54726473286012_1_alg».proof.Proof.Bodies
import Idealize.ShloMosaic.Lib.Pipeline.Value

noncomputable section

namespace Cert.KernelIdeal.Region0

open Cert.KernelIdeal Cert.KernelIdeal.Gen Cert.KernelIdeal.Bodies Idealize.ShloMosaic Idealize.ShloMosaic.TcCoe Idealize.SL.Sem
open Idealize.ShloMosaic.ValueIdx Cert.Lib.MatProd
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The block index of each window at each grid point: the row windows move with the point, the right operand's stays. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 := lt_of_lt_of_eq t.isLt N_0

/-- Row `p` of the left block at point `t` is row `t·10000 + p` of the left array. -/
theorem left_block (c : Dev nD) (t : Fin cfg0.N) (p : Fin 10000) (k : Fin 128) (h : t.val * 10000 + p.val < 100000) :
    iblk0 V c 0 t (ix2 p k) = (V c main_arg0 : S100000x128.Idx → EReal) (ix2 ⟨t.val * 10000 + p.val, h⟩ k) := by
  obtain ⟨e0, e1, -⟩ := block_index t
  show (V c main_arg0 : S100000x128.Idx → EReal) (((cfg0.win 0).blk t).view.emb (ix2 p k)) = _
  refine congrArg (V c main_arg0 : S100000x128.Idx → EReal) (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The right block at every point is the whole right array. -/
theorem right_block (c : Dev nD) (t : Fin cfg0.N) (y : S128x128.Idx) :
    iblk0 V c 1 t y = (V c main_arg2 : S128x128.Idx → EReal) y := by
  obtain ⟨-, -, e2, e3, -⟩ := block_index t
  show (V c main_arg2 : S128x128.Idx → EReal) (((cfg0.win 1).blk t).view.emb y) = _
  refine congrArg (V c main_arg2 : S128x128.Idx → EReal) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Entry `(p, q)` of the output block at point `t` sits at `(t·10000 + p, q)` of the output array. -/
theorem out_block (t : Fin cfg0.N) (p : Fin 10000) (q : Fin 128) (h : t.val * 10000 + p.val < 100000) :
    ((cfg0.win 2).blk t).view.emb (ix2 p q) = (ix2 ⟨t.val * 10000 + p.val, h⟩ q : S100000x128.Idx) := by
  obtain ⟨-, -, -, -, e4, e5⟩ := block_index t
  refine funext fun a => Fin.ext ?_
  match a with
  | ⟨0, _⟩ => show win0_2.index t (0 : Fin 2) * 10000 + 1 * p.val = t.val * 10000 + p.val; omega
  | ⟨1, _⟩ => show win0_2.index t (1 : Fin 2) * 128 + 1 * q.val = q.val; omega

/-- What point `t` writes back is block `t` of the whole product of the entry arrays. -/
theorem flushed_eq (c : Dev nD) (t : Fin cfg0.N) :
    (dat0 V c).flushed 2 t = ((cfg0.win 2).blk t).view.read (Elt Ideal) (prod (V c main_arg0 : S100000x128.Idx → EReal) (V c main_arg2 : S128x128.Idx → EReal)) := by
  show (cfg0.win 2).cut (grid0.coords t) ((dat0 V c).after 2 t) = _
  rw [after0_2]
  unfold out0_2
  rw [View.canon_unit_zero zeros]
  simp only [View.ld_unit_zero (S := S10000x128) zeros, View.ld_unit_zero (S := S128x128) zeros]
  rw [pay0]
  funext j
  obtain ⟨p, q, rfl⟩ : ∃ (p : Fin 10000) (q : Fin 128), j = ix2 p q := ⟨j 0, j 1, eq_ix2 j⟩
  have h : t.val * 10000 + p.val < 100000 := by have := point_lt t; have := p.isLt; omega
  show prod (iblk0 V c 0 t) (iblk0 V c 1 t) (ix2 p q)
    = prod (V c main_arg0 : S100000x128.Idx → EReal) (V c main_arg2 : S128x128.Idx → EReal) (((cfg0.win 2).blk t).view.emb (ix2 p q))
  rw [out_block t p q h]
  exact prod_rows (V c main_arg0 : S100000x128.Idx → EReal) (V c main_arg2 : S128x128.Idx → EReal) (iblk0 V c 0 t) (iblk0 V c 1 t)
    t.val p q h (fun k => left_block V c t p k h) (fun k => right_block V c t (ix2 k q))

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every index of the output array is in some point's block: row `r` in block `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by rw [show cfg0.N = 10 from N_0]; omega
  obtain ⟨-, -, -, -, e4, e5⟩ := block_index ⟨(i 0).val / 10000, hN⟩
  have e4' : win0_2.index ⟨(i 0).val / 10000, hN⟩ (0 : Fin 2) = (i 0).val / 10000 := e4
  refine ⟨⟨(i 0).val / 10000, hN⟩, flush0_2 _, ?_⟩
  rw [mem_blk]
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; omega
  | ⟨1, _⟩ => show win0_2.index ⟨(i 0).val / 10000, hN⟩ (1 : Fin 2) * 128 ≤ (i 1).val ∧ (i 1).val < win0_2.index ⟨(i 0).val / 10000, hN⟩ (1 : Fin 2) * 128 + 128; omega

/-- The output array after the grid is the whole product of the two entry arrays. -/
theorem final (c : Dev nD) :
    (dat0 V c).arrAt 2 cfg0.N = prod (V c main_arg0 : S100000x128.Idx → EReal) (V c main_arg2 : S128x128.Idx → EReal) :=
  (dat0 V c).arrAt_eq_of_cover 2 (prod (V c main_arg0 : S100000x128.Idx → EReal) (V c main_arg2 : S128x128.Idx → EReal))
    (fun t _ => flushed_eq V c t) cover

end Cert.KernelIdeal.Region0

end
-- ==== Proof.Region1.lean ====
/-
  Region 1, the second dense layer fused with the first layer's bias and rectifier: its output array after the grid, as one function of the arrays it is entered with.

  Point `t` of the ten loads rows `t·10000 … t·10000 + 9999` of the aggregated features, the whole one-row bias and
  the whole weight matrix; it adds the bias to every row, clamps at zero, multiplies by the weights, and writes
  the result back as rows `t·10000 …` of the output. Bias and clamp act entry by entry and a row of a product
  depends on the left operand through that row only, so block `t` of the output is block `t` of the one function
  "add the bias row, clamp, multiply" of the whole entry arrays; the blocks tile the rows. For any entry contents `V`.
-/
import proofs.«126798_j54726473286012_1_alg».proof.Proof.Gen.KernelIdeal.Frame
import proofs.«126798_j54726473286012_1_alg».proof.Proof.Bodies
import Idealize.ShloMosaic.Lib.Pipeline.Value

noncomputable section

namespace Cert.KernelIdeal.Region1

open Cert.KernelIdeal Cert.KernelIdeal.Gen Cert.KernelIdeal.Bodies Idealize.ShloMosaic Idealize.ShloMosaic.TcCoe Idealize.SL.Sem
open Idealize.ShloMosaic.ValueIdx Cert.Lib.MatProd
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The block index of each window at each grid point: the two row windows move with the point, bias and weights stay. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 10 := lt_of_lt_of_eq t.isLt N_1

/-- Row `p` of the feature block at point `t` is row `t·10000 + p` of the feature array. -/
theorem left_block (c : Dev nD) (t : Fin cfg1.N) (p : Fin 10000) (k : Fin 128) (h : t.val * 10000 + p.val < 100000) :
    iblk1 V c 0 t (ix2 p k) = (V c main_v43 : S100000x128.Idx → EReal) (ix2 ⟨t.val * 10000 + p.val, h⟩ k) := by
  obtain ⟨e0, e1, -⟩ := block_index t
  show (V c main_v43 : S100000x128.Idx → EReal) (((cfg1.win 0).blk t).view.emb (ix2 p k)) = _
  refine congrArg (V c main_v43 : S100000x128.Idx → EReal) (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * k.val = k.val; omega

/-- The bias block at every point is the whole one-row bias array. -/
theorem row_block (c : Dev nD) (t : Fin cfg1.N) (y : S1x128.Idx) :
    iblk1 V c 1 t y = (V c main_v44 : S1x128.Idx → EReal) y := by
  obtain ⟨-, -, e2, e3, -⟩ := block_index t
  show (V c main_v44 : S1x128.Idx → EReal) (((cfg1.win 1).blk t).view.emb y) = _
  refine congrArg (V c main_v44 : S1x128.Idx → EReal) (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The weight block at every point is the whole weight array. -/
theorem right_block (c : Dev nD) (t : Fin cfg1.N) (y : S128x128.Idx) :
    iblk1 V c 2 t y = (V c main_arg4 : S128x128.Idx → EReal) y := by
  obtain ⟨-, -, -, -, e4, e5, -⟩ := block_index t
  show (V c main_arg4 : S128x128.Idx → EReal) (((cfg1.win 2).blk t).view.emb y) = _
  refine congrArg (V c main_arg4 : S128x128.Idx → EReal) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Entry `(p, q)` of the output block at point `t` sits at `(t·10000 + p, q)` of the output array. -/
theorem out_block (t : Fin cfg1.N) (p : Fin 10000) (q : Fin 128) (h : t.val * 10000 + p.val < 100000) :
    ((cfg1.win 3).blk t).view.emb (ix2 p q) = (ix2 ⟨t.val * 10000 + p.val, h⟩ q : S100000x128.Idx) := by
  obtain ⟨-, -, -, -, -, -, e6, e7⟩ := block_index t
  refine funext fun a => Fin.ext ?_
  match a with
  | ⟨0, _⟩ => show win1_3.index t (0 : Fin 2) * 10000 + 1 * p.val = t.val * 10000 + p.val; omega
  | ⟨1, _⟩ => show win1_3.index t (1 : Fin 2) * 128 + 1 * q.val = q.val; omega

/-- The clamped, biased feature block at `(p, k)` is the clamped, biased feature array at `(t·10000 + p, k)`. -/
theorem hidden_block (c : Dev nD) (t : Fin cfg1.N) (p : Fin 10000) (k : Fin 128) (h : t.val * 10000 + p.val < 100000) :
    rowBiasRelu (iblk1 V c 0 t) (iblk1 V c 1 t) (ix2 p k) = rowBiasRelu (V c main_v43 : S100000x128.Idx → EReal) (V c main_v44 : S1x128.Idx → EReal) (ix2 ⟨t.val * 10000 + p.val, h⟩ k) := by
  exact congrArg₂ (fun u v : EReal => max (u + v) (Ideal.ofBits .f32 0x00000000#32))
    (left_block V c t p k h) (row_block V c t (ix2 (0 : Fin 1) k))

/-- What point `t` writes back is block `t` of "add the bias row, clamp, multiply" of the entry arrays. -/
theorem flushed_eq (c : Dev nD) (t : Fin cfg1.N) :
    (dat1 V c).flushed 3 t = ((cfg1.win 3).blk t).view.read (Elt Ideal) (prod (rowBiasRelu (V c main_v43 : S100000x128.Idx → EReal) (V c main_v44 : S1x128.Idx → EReal)) (V c main_arg4 : S128x128.Idx → EReal)) := by
  show (cfg1.win 3).cut (grid1.coords t) ((dat1 V c).after 3 t) = _
  rw [after1_3]
  unfold out1_3
  rw [View.canon_unit_zero zeros]
  simp only [View.ld_unit_zero (S := S10000x128) zeros, View.ld_unit_zero (S := S1x128) zeros, View.ld_unit_zero (S := S128x128) zeros]
  rw [pay1]
  funext j
  obtain ⟨p, q, rfl⟩ : ∃ (p : Fin 10000) (q : Fin 128), j = ix2 p q := ⟨j 0, j 1, eq_ix2 j⟩
  have h : t.val * 10000 + p.val < 100000 := by have := point_lt t; have := p.isLt; omega
  show prod (rowBiasRelu (iblk1 V c 0 t) (iblk1 V c 1 t)) (iblk1 V c 2 t) (ix2 p q)
    = (prod (rowBiasRelu (V c main_v43 : S100000x128.Idx → EReal) (V c main_v44 : S1x128.Idx → EReal)) (V c main_arg4 : S128x128.Idx → EReal)) (((cfg1.win 3).blk t).view.emb (ix2 p q))
  rw [out_block t p q h]
  exact prod_rows (rowBiasRelu (V c main_v43 : S100000x128.Idx → EReal) (V c main_v44 : S1x128.Idx → EReal)) (V c main_arg4 : S128x128.Idx → EReal) (rowBiasRelu (iblk1 V c 0 t) (iblk1 V c 1 t)) (iblk1 V c 2 t)
    t.val p q h (fun k => hidden_block V c t p k h) (fun k => right_block V c t (ix2 k q))

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v45).slice (win1_3.rect t)).set ↔ _
  rw [View.set_slice_whole, Rect.mem_set_unit]
  exact Iff.rfl

/-- Every index of the output array is in some point's block: row `r` in block `r / 10000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 10000 < cfg1.N := by rw [show cfg1.N = 10 from N_1]; omega
  obtain ⟨-, -, -, -, -, -, e6, e7⟩ := block_index ⟨(i 0).val / 10000, hN⟩
  have e6' : win1_3.index ⟨(i 0).val / 10000, hN⟩ (0 : Fin 2) = (i 0).val / 10000 := e6
  refine ⟨⟨(i 0).val / 10000, hN⟩, flush1_3 _, ?_⟩
  rw [mem_blk]
  intro a
  match a with
  | ⟨0, _⟩ => show win1_3.index ⟨(i 0).val / 10000, hN⟩ (0 : Fin 2) * 10000 ≤ (i 0).val ∧ (i 0).val < win1_3.index ⟨(i 0).val / 10000, hN⟩ (0 : Fin 2) * 10000 + 10000; omega
  | ⟨1, _⟩ => show win1_3.index ⟨(i 0).val / 10000, hN⟩ (1 : Fin 2) * 128 ≤ (i 1).val ∧ (i 1).val < win1_3.index ⟨(i 0).val / 10000, hN⟩ (1 : Fin 2) * 128 + 128; omega

/-- The output array after the grid: the entry features plus the bias row, clamped at zero, times the weights. -/
theorem final (c : Dev nD) : (dat1 V c).arrAt 3 cfg1.N = (prod (rowBiasRelu (V c main_v43 : S100000x128.Idx → EReal) (V c main_v44 : S1x128.Idx → EReal)) (V c main_arg4 : S128x128.Idx → EReal)) :=
  (dat1 V c).arrAt_eq_of_cover 3 (prod (rowBiasRelu (V c main_v43 : S100000x128.Idx → EReal) (V c main_v44 : S1x128.Idx → EReal)) (V c main_arg4 : S128x128.Idx → EReal)) (fun t _ => flushed_eq V c t) cover

end Cert.KernelIdeal.Region1

end
-- ==== Proof.Region2.lean ====
/-
  Region 2, the third dense layer fused with the second layer's bias and rectifier: its output array after the grid, as one function of the arrays it is entered with.

  Point `t` of the ten loads rows `t·10000 … t·10000 + 9999` of the aggregated features, the whole one-row bias and
  the whole weight matrix; it adds the bias to every row, clamps at zero, multiplies by the weights, and writes
  the result back as rows `t·10000 …` of the output. Bias and clamp act entry by entry and a row of a product
  depends on the left operand through that row only, so block `t` of the output is block `t` of the one function
  "add the bias row, clamp, multiply" of the whole entry arrays; the blocks tile the rows. For any entry contents `V`.
-/
import proofs.«126798_j54726473286012_1_alg».proof.Proof.Gen.KernelIdeal.Frame
import proofs.«126798_j54726473286012_1_alg».proof.Proof.Bodies
import Idealize.ShloMosaic.Lib.Pipeline.Value

noncomputable section

namespace Cert.KernelIdeal.Region2

open Cert.KernelIdeal Cert.KernelIdeal.Gen Cert.KernelIdeal.Bodies Idealize.ShloMosaic Idealize.ShloMosaic.TcCoe Idealize.SL.Sem
open Idealize.ShloMosaic.ValueIdx Cert.Lib.MatProd
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The block index of each window at each grid point: the two row windows move with the point, bias and weights stay. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 10 := lt_of_lt_of_eq t.isLt N_2

/-- Row `p` of the feature block at point `t` is row `t·10000 + p` of the feature array. -/
theorem left_block (c : Dev nD) (t : Fin cfg2.N) (p : Fin 10000) (k : Fin 128) (h : t.val * 10000 + p.val < 100000) :
    iblk2 V c 0 t (ix2 p k) = (V c main_v58 : S100000x128.Idx → EReal) (ix2 ⟨t.val * 10000 + p.val, h⟩ k) := by
  obtain ⟨e0, e1, -⟩ := block_index t
  show (V c main_v58 : S100000x128.Idx → EReal) (((cfg2.win 0).blk t).view.emb (ix2 p k)) = _
  refine congrArg (V c main_v58 : S100000x128.Idx → EReal) (funext fun a => Fin.ext ?_)
  match a with
  | ⟨0, _⟩ => show win2_0.index t (0 : Fin 2) * 10000 + 1 * p.val = t.val * 10000 + p.val; omega
  | ⟨1, _⟩ => show win2_0.index t (1 : Fin 2) * 128 + 1 * k.val = k.val; omega

/-- The bias block at every point is the whole one-row bias array. -/
theorem row_block (c : Dev nD) (t : Fin cfg2.N) (y : S1x128.Idx) :
    iblk2 V c 1 t y = (V c main_v59 : S1x128.Idx → EReal) y := by
  obtain ⟨-, -, e2, e3, -⟩ := block_index t
  show (V c main_v59 : S1x128.Idx → EReal) (((cfg2.win 1).blk t).view.emb y) = _
  refine congrArg (V c main_v59 : S1x128.Idx → EReal) (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The weight block at every point is the whole weight array. -/
theorem right_block (c : Dev nD) (t : Fin cfg2.N) (y : S128x64.Idx) :
    iblk2 V c 2 t y = (V c main_arg6 : S128x64.Idx → EReal) y := by
  obtain ⟨-, -, -, -, e4, e5, -⟩ := block_index t
  show (V c main_arg6 : S128x64.Idx → EReal) (((cfg2.win 2).blk t).view.emb y) = _
  refine congrArg (V c main_arg6 : S128x64.Idx → EReal) (funext fun a => Fin.ext ?_)
  match a with
  | ⟨0, _⟩ => show win2_2.index t (0 : Fin 2) * 128 + 1 * (y 0).val = (y 0).val; omega
  | ⟨1, _⟩ => show win2_2.index t (1 : Fin 2) * 64 + 1 * (y 1).val = (y 1).val; omega

/-- Entry `(p, q)` of the output block at point `t` sits at `(t·10000 + p, q)` of the output array. -/
theorem out_block (t : Fin cfg2.N) (p : Fin 10000) (q : Fin 64) (h : t.val * 10000 + p.val < 100000) :
    ((cfg2.win 3).blk t).view.emb (ix2 p q) = (ix2 ⟨t.val * 10000 + p.val, h⟩ q : S100000x64.Idx) := by
  obtain ⟨-, -, -, -, -, -, e6, e7⟩ := block_index t
  refine funext fun a => Fin.ext ?_
  match a with
  | ⟨0, _⟩ => show win2_3.index t (0 : Fin 2) * 10000 + 1 * p.val = t.val * 10000 + p.val; omega
  | ⟨1, _⟩ => show win2_3.index t (1 : Fin 2) * 64 + 1 * q.val = q.val; omega

/-- The clamped, biased feature block at `(p, k)` is the clamped, biased feature array at `(t·10000 + p, k)`. -/
theorem hidden_block (c : Dev nD) (t : Fin cfg2.N) (p : Fin 10000) (k : Fin 128) (h : t.val * 10000 + p.val < 100000) :
    rowBiasRelu (iblk2 V c 0 t) (iblk2 V c 1 t) (ix2 p k) = rowBiasRelu (V c main_v58 : S100000x128.Idx → EReal) (V c main_v59 : S1x128.Idx → EReal) (ix2 ⟨t.val * 10000 + p.val, h⟩ k) := by
  exact congrArg₂ (fun u v : EReal => max (u + v) (Ideal.ofBits .f32 0x00000000#32))
    (left_block V c t p k h) (row_block V c t (ix2 (0 : Fin 1) k))

/-- What point `t` writes back is block `t` of "add the bias row, clamp, multiply" of the entry arrays. -/
theorem flushed_eq (c : Dev nD) (t : Fin cfg2.N) :
    (dat2 V c).flushed 3 t = ((cfg2.win 3).blk t).view.read (Elt Ideal) (prod (rowBiasRelu (V c main_v58 : S100000x128.Idx → EReal) (V c main_v59 : S1x128.Idx → EReal)) (V c main_arg6 : S128x64.Idx → EReal)) := by
  show (cfg2.win 3).cut (grid2.coords t) ((dat2 V c).after 3 t) = _
  rw [after2_3]
  unfold out2_3
  rw [View.canon_unit_zero zeros]
  simp only [View.ld_unit_zero (S := S10000x128) zeros, View.ld_unit_zero (S := S1x128) zeros, View.ld_unit_zero (S := S128x64) zeros]
  rw [pay2]
  funext j
  obtain ⟨p, q, rfl⟩ : ∃ (p : Fin 10000) (q : Fin 64), j = ix2 p q := ⟨j 0, j 1, eq_ix2 j⟩
  have h : t.val * 10000 + p.val < 100000 := by have := point_lt t; have := p.isLt; omega
  show prod (rowBiasRelu (iblk2 V c 0 t) (iblk2 V c 1 t)) (iblk2 V c 2 t) (ix2 p q)
    = (prod (rowBiasRelu (V c main_v58 : S100000x128.Idx → EReal) (V c main_v59 : S1x128.Idx → EReal)) (V c main_arg6 : S128x64.Idx → EReal)) (((cfg2.win 3).blk t).view.emb (ix2 p q))
  rw [out_block t p q h]
  exact prod_rows (rowBiasRelu (V c main_v58 : S100000x128.Idx → EReal) (V c main_v59 : S1x128.Idx → EReal)) (V c main_arg6 : S128x64.Idx → EReal) (rowBiasRelu (iblk2 V c 0 t) (iblk2 V c 1 t)) (iblk2 V c 2 t)
    t.val p q h (fun k => hidden_block V c t p k h) (fun k => right_block V c t (ix2 k q))

/-- An index of the output array is in point `t`'s block iff each coordinate is in the block's range on its axis. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v60).slice (win2_3.rect t)).set ↔ _
  rw [View.set_slice_whole, Rect.mem_set_unit]
  exact Iff.rfl

/-- Every index of the output array is in some point's block: row `r` in block `r / 10000`. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : (i 0).val / 10000 < cfg2.N := by rw [show cfg2.N = 10 from N_2]; omega
  obtain ⟨-, -, -, -, -, -, e6, e7⟩ := block_index ⟨(i 0).val / 10000, hN⟩
  have e6' : win2_3.index ⟨(i 0).val / 10000, hN⟩ (0 : Fin 2) = (i 0).val / 10000 := e6
  refine ⟨⟨(i 0).val / 10000, hN⟩, flush2_3 _, ?_⟩
  rw [mem_blk]
  intro a
  match a with
  | ⟨0, _⟩ => show win2_3.index ⟨(i 0).val / 10000, hN⟩ (0 : Fin 2) * 10000 ≤ (i 0).val ∧ (i 0).val < win2_3.index ⟨(i 0).val / 10000, hN⟩ (0 : Fin 2) * 10000 + 10000; omega
  | ⟨1, _⟩ => show win2_3.index ⟨(i 0).val / 10000, hN⟩ (1 : Fin 2) * 64 ≤ (i 1).val ∧ (i 1).val < win2_3.index ⟨(i 0).val / 10000, hN⟩ (1 : Fin 2) * 64 + 64; omega

/-- The output array after the grid: the entry features plus the bias row, clamped at zero, times the weights. -/
theorem final (c : Dev nD) : (dat2 V c).arrAt 3 cfg2.N = (prod (rowBiasRelu (V c main_v58 : S100000x128.Idx → EReal) (V c main_v59 : S1x128.Idx → EReal)) (V c main_arg6 : S128x64.Idx → EReal)) :=
  (dat2 V c).arrAt_eq_of_cover 3 (prod (rowBiasRelu (V c main_v58 : S100000x128.Idx → EReal) (V c main_v59 : S1x128.Idx → EReal)) (V c main_arg6 : S128x64.Idx → EReal)) (fun t _ => flushed_eq V c t) cover

end Cert.KernelIdeal.Region2

end
-- ==== Proof.Region3.lean ====
/-
  Region 3, the last layer's bias: its output array after the grid, as one function of the arrays it is entered with.

  Point `t` of the ten loads rows `t·10000 … t·10000 + 9999` of the aggregated features and the whole one-row bias,
  adds the bias to every row and writes the rows back in place in the output. The sum acts entry by entry, so the
  output array ends as the entry features plus the bias row, everywhere; the ten blocks tile the rows. For any entry
  contents `V`.
-/
import proofs.«126798_j54726473286012_1_alg».proof.Proof.Gen.KernelIdeal.Frame
import proofs.«126798_j54726473286012_1_alg».proof.Proof.Bodies
import Idealize.ShloMosaic.Lib.Pipeline.Value

noncomputable section

namespace Cert.KernelIdeal.Region3

open Cert.KernelIdeal Cert.KernelIdeal.Gen Cert.KernelIdeal.Bodies Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The block index of each window at each grid point: the two row windows move with the point, the bias stays. -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem point_lt (t : Fin cfg3.N) : t.val < 10 := lt_of_lt_of_eq t.isLt N_3

/-- Row `p` of the feature block at point `t` is row `t·10000 + p` of the feature array. -/
theorem left_block (c : Dev nD) (t : Fin cfg3.N) (p : Fin 10000) (k : Fin 64) (h : t.val * 10000 + p.val < 100000) :
    iblk3 V c 0 t (ix2 p k) = (V c main_v73 : S100000x64.Idx → EReal) (ix2 ⟨t.val * 10000 + p.val, h⟩ k) := by
  obtain ⟨e0, e1, -⟩ := block_index t
  show (V c main_v73 : S100000x64.Idx → EReal) (((cfg3.win 0).blk t).view.emb (ix2 p k)) = _
  refine congrArg (V c main_v73 : S100000x64.Idx → EReal) (funext fun a => Fin.ext ?_)
  match a with
  | ⟨0, _⟩ => show win3_0.index t (0 : Fin 2) * 10000 + 1 * p.val = t.val * 10000 + p.val; omega
  | ⟨1, _⟩ => show win3_0.index t (1 : Fin 2) * 64 + 1 * k.val = k.val; omega

/-- The bias block at every point is the whole one-row bias array. -/
theorem row_block (c : Dev nD) (t : Fin cfg3.N) (y : S1x64.Idx) :
    iblk3 V c 1 t y = (V c main_v74 : S1x64.Idx → EReal) y := by
  obtain ⟨-, -, e2, e3, -⟩ := block_index t
  show (V c main_v74 : S1x64.Idx → EReal) (((cfg3.win 1).blk t).view.emb y) = _
  refine congrArg (V c main_v74 : S1x64.Idx → EReal) (funext fun a => Fin.ext ?_)
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- Entry `(p, q)` of the output block at point `t` sits at `(t·10000 + p, q)` of the output array. -/
theorem out_block (t : Fin cfg3.N) (p : Fin 10000) (q : Fin 64) (h : t.val * 10000 + p.val < 100000) :
    ((cfg3.win 2).blk t).view.emb (ix2 p q) = (ix2 ⟨t.val * 10000 + p.val, h⟩ q : S100000x64.Idx) := by
  obtain ⟨-, -, -, -, e4, e5⟩ := block_index t
  refine funext fun a => Fin.ext ?_
  match a with
  | ⟨0, _⟩ => show win3_2.index t (0 : Fin 2) * 10000 + 1 * p.val = t.val * 10000 + p.val; omega
  | ⟨1, _⟩ => show win3_2.index t (1 : Fin 2) * 64 + 1 * q.val = q.val; omega

/-- What point `t` writes back is block `t` of the entry features plus the bias row. -/
theorem flushed_eq (c : Dev nD) (t : Fin cfg3.N) :
    (dat3 V c).flushed 2 t = ((cfg3.win 2).blk t).view.read (Elt Ideal) (rowBias (V c main_v73 : S100000x64.Idx → EReal) (V c main_v74 : S1x64.Idx → EReal)) := by
  show (cfg3.win 2).cut (grid3.coords t) ((dat3 V c).after 2 t) = _
  rw [after3_2]
  unfold out3_2
  rw [View.canon_unit_zero zeros]
  simp only [View.ld_unit_zero (S := S10000x64) zeros, View.ld_unit_zero (S := S1x64) zeros]
  rw [pay3]
  funext j
  obtain ⟨p, q, rfl⟩ : ∃ (p : Fin 10000) (q : Fin 64), j = ix2 p q := ⟨j 0, j 1, eq_ix2 j⟩
  have h : t.val * 10000 + p.val < 100000 := by have := point_lt t; have := p.isLt; omega
  show rowBias (iblk3 V c 0 t) (iblk3 V c 1 t) (ix2 p q) = (rowBias (V c main_v73 : S100000x64.Idx → EReal) (V c main_v74 : S1x64.Idx → EReal)) (((cfg3.win 2).blk t).view.emb (ix2 p q))
  rw [out_block t p q h]
  exact congrArg₂ (fun u v : EReal => u + v) (left_block V c t p q h) (row_block V c t (ix2 (0 : Fin 1) q))

/-- An index of the output array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v75).slice (win3_2.rect t)).set ↔ _
  rw [View.set_slice_whole, Rect.mem_set_unit]
  exact Iff.rfl

/-- Every index of the output array is in some point's block: row `r` in block `r / 10000`. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 10000 < cfg3.N := by rw [show cfg3.N = 10 from N_3]; omega
  obtain ⟨-, -, -, -, e4, e5⟩ := block_index ⟨(i 0).val / 10000, hN⟩
  have e4' : win3_2.index ⟨(i 0).val / 10000, hN⟩ (0 : Fin 2) = (i 0).val / 10000 := e4
  refine ⟨⟨(i 0).val / 10000, hN⟩, flush3_2 _, ?_⟩
  rw [mem_blk]
  intro a
  match a with
  | ⟨0, _⟩ => show win3_2.index ⟨(i 0).val / 10000, hN⟩ (0 : Fin 2) * 10000 ≤ (i 0).val ∧ (i 0).val < win3_2.index ⟨(i 0).val / 10000, hN⟩ (0 : Fin 2) * 10000 + 10000; omega
  | ⟨1, _⟩ => show win3_2.index ⟨(i 0).val / 10000, hN⟩ (1 : Fin 2) * 64 ≤ (i 1).val ∧ (i 1).val < win3_2.index ⟨(i 0).val / 10000, hN⟩ (1 : Fin 2) * 64 + 64; omega

/-- The output array after the grid: the entry features plus the bias row. -/
theorem final (c : Dev nD) : (dat3 V c).arrAt 2 cfg3.N = (rowBias (V c main_v73 : S100000x64.Idx → EReal) (V c main_v74 : S1x64.Idx → EReal)) :=
  (dat3 V c).arrAt_eq_of_cover 2 (rowBias (V c main_v73 : S100000x64.Idx → EReal) (V c main_v74 : S1x64.Idx → EReal)) (fun t _ => flushed_eq V c t) cover

end Cert.KernelIdeal.Region3

end
-- ==== Proof.Graph.lean ====
/-
  The graph part of the network, which both programs compute with the same host operations.

  From the edge list `e : [2, 1600000]` (row 0 the destinations, row 1 the sources) with a self loop appended for
  each of the 100000 nodes: the destination and source of each of the 1700000 edges (`dst`, `src`); an index wrapped
  into range the way an indexing operation wraps a negative index (`wrapped`); the degree of a node, a sum of ones
  over the edges that end at it (`deg`); its inverse square root where the degree is positive and zero elsewhere
  (`dinv`); the weight of an edge, the product of that at its two ends (`norm`); and the aggregation of a feature
  table `t`: each edge takes the row of `t` at its source, scales it by the edge's weight and adds it into the row
  at its destination (`agg128`, `agg64` by the table's width). Nothing here is ever evaluated: the two programs
  contain these terms verbatim, and the proofs only ever compare them.
-/
import proofs.«126798_j54726473286012_1_alg».proof.Proof.Gen.KernelIdeal

noncomputable section

namespace Cert.KernelIdeal.Graph

open Idealize.ShloMosaic Cert.KernelIdeal Cert.KernelIdeal.Facts₀

variable {F : FTy → Type} [FloatOps F]

/-- The destination node of each edge, self loops last. -/
def dst (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The source node of each edge, self loops last. -/
def src (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A vector of node indices as a column of start indices, a negative one moved up by the number of nodes. -/
def wrapped (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The number of edges ending at each node. -/
def deg (e : IVec S2x1600000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dst e))
    (broadcastInDim S1700000 ![] bcast_S_S1700000 (constant S_ .f32 0x3F800000#32))

/-- One over the square root of the degree where the degree is positive, zero elsewhere. -/
def dinv (e : IVec S2x1600000 32) : FVec F S100000 .f32 :=
  select (cmpf .ogt (deg (F := F) e) (broadcastInDim S100000 ![] bcast_S_S100000 (constant S_ .f32 0x00000000#32)))
    (Host.rsqrt (deg (F := F) e)) (broadcastInDim S100000 ![] bcast_S_S100000 (constant S_ .f32 0x00000000#32))

/-- The weight of each edge: `dinv` at its destination times `dinv` at its source. -/
def norm (e : IVec S2x1600000 32) : FVec F S1700000 .f32 :=
  mulf (Host.gather gather_S100000_S1700000x1_S1700000_n_0_n_n_0_1_1 (dinv (F := F) e) (wrapped (dst e)))
    (Host.gather gather_S100000_S1700000x1_S1700000_n_0_n_n_0_1_1 (dinv (F := F) e) (wrapped (src e)))

/-- The aggregation of a table of 128 features per node. -/
def agg128 (e : IVec S2x1600000 32) (t : FVec F S100000x128 .f32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 (dst e))
    (mulf (broadcastInDim S1700000x128 ![0, 1] bcast_S1700000x1_S1700000x128_0_1 (broadcastInDim S1700000x1 ![0] bcast_S1700000_S1700000x1_0 (norm (F := F) e)))
      (Host.gather gather_S100000x128_S1700000x1_S1700000x128_1_0_n_n_0_1_1128 t (wrapped (src e))))

/-- The aggregation of a table of 64 features per node. -/
def agg64 (e : IVec S2x1600000 32) (t : FVec F S100000x64 .f32) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 (dst e))
    (mulf (broadcastInDim S1700000x64 ![0, 1] bcast_S1700000x1_S1700000x64_0_1 (broadcastInDim S1700000x1 ![0] bcast_S1700000_S1700000x1_0 (norm (F := F) e)))
      (Host.gather gather_S100000x64_S1700000x1_S1700000x64_1_0_n_n_0_1_164 t (wrapped (src e))))

end Cert.KernelIdeal.Graph

end
-- ==== Proof.Network.lean ====
/-
  The network both programs compute, as one function of the eight arguments, on the extended reals.

  Three graph-convolution layers: a dense product with a weight matrix, an aggregation over the graph, and a bias
  added along the feature axis; a rectifier (clamp below at zero) follows the first two layers' bias. The bias is
  taken as a one-row array repeated over the rows.
-/
import proofs.«126798_j54726473286012_1_alg».proof.Proof.Graph
import proofs.«126798_j54726473286012_1_alg».proof.Proof.Bodies

noncomputable section

namespace Cert.KernelIdeal.Network

open Idealize.ShloMosaic Cert.KernelIdeal Cert.KernelIdeal.Graph Cert.KernelIdeal.Bodies Cert.Lib.MatProd

/-- Features `x`, edge list `e`, and per layer a weight matrix and a bias vector. -/
def net (x : S100000x128.Idx → EReal) (e : IVec S2x1600000 32)
    (w0 : S128x128.Idx → EReal) (b0 : S128.Idx → EReal) (w1 : S128x128.Idx → EReal) (b1 : S128.Idx → EReal)
    (w2 : S128x64.Idx → EReal) (b2 : S64.Idx → EReal) : S100000x64.Idx → EReal :=
  rowBias (agg64 (F := Ideal) e
    (prod (rowBiasRelu (agg128 (F := Ideal) e
      (prod (rowBiasRelu (agg128 (F := Ideal) e (prod x w0)) (shapeCast S1x128 b0 Facts₀.shapeCasts_S128_S1x128)) w1))
      (shapeCast S1x128 b1 Facts₀.shapeCasts_S128_S1x128)) w2))
    (shapeCast S1x64 b2 Facts₀.shapeCasts_S64_S1x64)

end Cert.KernelIdeal.Network

end
-- ==== Proof.Boundaries.lean ====
/-
  What the kernel program's buffers hold at each boundary between a host stretch and a grid region.

  The launch memory is folded through the program: each host stretch applies its operations, each region replaces
  its output array by what its grid wrote back. Followed buffer by buffer this gives: after the first stretch the
  edges' destinations, sources and weights (functions of the edge list alone) and the untouched arguments; after
  region 0 the first dense product; after the next stretch its aggregation over the graph and the first bias as a
  one-row array; after region 1 the second dense product of the clamped, biased aggregation; and so on, until the
  last region leaves, in the result buffer, the third aggregation plus the last bias row.
  The host operations are never opened: a stretch's result is read back as the composed term of its operations and
  compared, as a term, with the graph functions' definitions — at any float instance, where the operations are
  opaque symbols; the regions' arithmetic is then read at the ideal values.
-/
import proofs.«126798_j54726473286012_1_alg».proof.Proof.Gen.KernelIdeal.Frame
import proofs.«126798_j54726473286012_1_alg».proof.Proof.Region0
import proofs.«126798_j54726473286012_1_alg».proof.Proof.Region1
import proofs.«126798_j54726473286012_1_alg».proof.Proof.Region2
import proofs.«126798_j54726473286012_1_alg».proof.Proof.Region3
import proofs.«126798_j54726473286012_1_alg».proof.Proof.Network
import Idealize.ShloMosaic.Lib.StableHlo.Run

set_option maxRecDepth 16384

noncomputable section

namespace Cert.KernelIdeal.Boundaries

open Cert.KernelIdeal Cert.KernelIdeal.Gen Cert.KernelIdeal.Bodies Cert.KernelIdeal.Graph Cert.KernelIdeal.Network
open Idealize.ShloMosaic Idealize.ShloMosaic.TcCoe Idealize.SL.Sem Idealize.ShloMosaic.StableHlo
open Cert.Lib.MatProd

/-! # The host stretches, at any float instance -/

section Stretches

variable {F : FTy → Type} [FloatOps F]
variable (m : (ℓ : Loc nD τ sig) → Buf (Elt F) ℓ) (ρ : Dev nD → PrngReg) (c : Dev nD)

/-! ## After the first host stretch (region 0's entry) -/

theorem at3_v3 : W3 m ρ c (Proc.devRef .tc main_v3) = dst (m ((c : Thread nD τ).loc main_arg1)) := by
  show StableHlo.after hostOps0_2 (StableHlo.after hostOps0_1 (StableHlo.after hostOps0 (W0 m ρ c))) (Proc.devRef .tc main_v3) = _
  after_results_simp <;> rfl

theorem at3_v6 : W3 m ρ c (Proc.devRef .tc main_v6) = src (m ((c : Thread nD τ).loc main_arg1)) := by
  show StableHlo.after hostOps0_2 (StableHlo.after hostOps0_1 (StableHlo.after hostOps0 (W0 m ρ c))) (Proc.devRef .tc main_v6) = _
  after_results_simp <;> rfl

theorem at3_v29 : W3 m ρ c (Proc.devRef .tc main_v29) = norm (F := F) (m ((c : Thread nD τ).loc main_arg1)) := by
  show StableHlo.after hostOps0_2 (StableHlo.after hostOps0_1 (StableHlo.after hostOps0 (W0 m ρ c))) (Proc.devRef .tc main_v29) = _
  after_results_simp <;> rfl

theorem at3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem at3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

theorem at3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem at3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem at3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

theorem at3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl

theorem at3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-! ## Through region 0, which writes none of these -/

theorem at4_v3 : W4 m ρ c (Proc.devRef .tc main_v3) = dst (m ((c : Thread nD τ).loc main_arg1)) :=
  (W4_of_ne m ρ c main_v3 (by decide)).trans (at3_v3 m ρ c)

theorem at4_v6 : W4 m ρ c (Proc.devRef .tc main_v6) = src (m ((c : Thread nD τ).loc main_arg1)) :=
  (W4_of_ne m ρ c main_v6 (by decide)).trans (at3_v6 m ρ c)

theorem at4_v29 : W4 m ρ c (Proc.devRef .tc main_v29) = norm (F := F) (m ((c : Thread nD τ).loc main_arg1)) :=
  (W4_of_ne m ρ c main_v29 (by decide)).trans (at3_v29 m ρ c)

theorem at4_arg3 : W4 m ρ c (Proc.devRef .tc main_arg3) = m ((c : Thread nD τ).loc main_arg3) :=
  (W4_of_ne m ρ c main_arg3 (by decide)).trans (at3_arg3 m ρ c)

theorem at4_arg4 : W4 m ρ c (Proc.devRef .tc main_arg4) = m ((c : Thread nD τ).loc main_arg4) :=
  (W4_of_ne m ρ c main_arg4 (by decide)).trans (at3_arg4 m ρ c)

theorem at4_arg5 : W4 m ρ c (Proc.devRef .tc main_arg5) = m ((c : Thread nD τ).loc main_arg5) :=
  (W4_of_ne m ρ c main_arg5 (by decide)).trans (at3_arg5 m ρ c)

theorem at4_arg6 : W4 m ρ c (Proc.devRef .tc main_arg6) = m ((c : Thread nD τ).loc main_arg6) :=
  (W4_of_ne m ρ c main_arg6 (by decide)).trans (at3_arg6 m ρ c)

theorem at4_arg7 : W4 m ρ c (Proc.devRef .tc main_arg7) = m ((c : Thread nD τ).loc main_arg7) :=
  (W4_of_ne m ρ c main_arg7 (by decide)).trans (at3_arg7 m ρ c)

/-! ## The second host stretch (region 1's entry) -/

theorem at5_v3 : W5 m ρ c (Proc.devRef .tc main_v3) = dst (m ((c : Thread nD τ).loc main_arg1)) := by
  show StableHlo.after hostOps1 (W4 m ρ c) (Proc.devRef .tc main_v3) = _
  after_results_simp
  exact at4_v3 m ρ c

theorem at5_v6 : W5 m ρ c (Proc.devRef .tc main_v6) = src (m ((c : Thread nD τ).loc main_arg1)) := by
  show StableHlo.after hostOps1 (W4 m ρ c) (Proc.devRef .tc main_v6) = _
  after_results_simp
  exact at4_v6 m ρ c

theorem at5_v29 : W5 m ρ c (Proc.devRef .tc main_v29) = norm (F := F) (m ((c : Thread nD τ).loc main_arg1)) := by
  show StableHlo.after hostOps1 (W4 m ρ c) (Proc.devRef .tc main_v29) = _
  after_results_simp
  exact at4_v29 m ρ c

theorem at5_arg4 : W5 m ρ c (Proc.devRef .tc main_arg4) = m ((c : Thread nD τ).loc main_arg4) := by
  show StableHlo.after hostOps1 (W4 m ρ c) (Proc.devRef .tc main_arg4) = _
  after_results_simp
  exact at4_arg4 m ρ c

theorem at5_arg5 : W5 m ρ c (Proc.devRef .tc main_arg5) = m ((c : Thread nD τ).loc main_arg5) := by
  show StableHlo.after hostOps1 (W4 m ρ c) (Proc.devRef .tc main_arg5) = _
  after_results_simp
  exact at4_arg5 m ρ c

theorem at5_arg6 : W5 m ρ c (Proc.devRef .tc main_arg6) = m ((c : Thread nD τ).loc main_arg6) := by
  show StableHlo.after hostOps1 (W4 m ρ c) (Proc.devRef .tc main_arg6) = _
  after_results_simp
  exact at4_arg6 m ρ c

theorem at5_arg7 : W5 m ρ c (Proc.devRef .tc main_arg7) = m ((c : Thread nD τ).loc main_arg7) := by
  show StableHlo.after hostOps1 (W4 m ρ c) (Proc.devRef .tc main_arg7) = _
  after_results_simp
  exact at4_arg7 m ρ c

/-- The stretch aggregates over the graph whatever table the region before it left. -/
theorem agg5 (t : FVec F S100000x128 .f32) (h : W4 m ρ c (Proc.devRef .tc main_v30) = t) :
    W5 m ρ c (Proc.devRef .tc main_v43) = agg128 (F := F) (m ((c : Thread nD τ).loc main_arg1)) t := by
  show StableHlo.after hostOps1 (W4 m ρ c) (Proc.devRef .tc main_v43) = _
  after_results_simp
  rw [at4_v3, at4_v6, at4_v29, h]
  rfl

/-- … and lays the layer's bias out as a one-row array. -/
theorem row5 : W5 m ρ c (Proc.devRef .tc main_v44) = shapeCast S1x128 (m ((c : Thread nD τ).loc main_arg3)) Facts₀.shapeCasts_S128_S1x128 := by
  show StableHlo.after hostOps1 (W4 m ρ c) (Proc.devRef .tc main_v44) = _
  after_results_simp
  rw [at4_arg3]
  rfl

/-! ## Through region 1 -/

theorem at6_v3 : W6 m ρ c (Proc.devRef .tc main_v3) = dst (m ((c : Thread nD τ).loc main_arg1)) :=
  (W6_of_ne m ρ c main_v3 (by decide)).trans (at5_v3 m ρ c)

theorem at6_v6 : W6 m ρ c (Proc.devRef .tc main_v6) = src (m ((c : Thread nD τ).loc main_arg1)) :=
  (W6_of_ne m ρ c main_v6 (by decide)).trans (at5_v6 m ρ c)

theorem at6_v29 : W6 m ρ c (Proc.devRef .tc main_v29) = norm (F := F) (m ((c : Thread nD τ).loc main_arg1)) :=
  (W6_of_ne m ρ c main_v29 (by decide)).trans (at5_v29 m ρ c)

theorem at6_arg5 : W6 m ρ c (Proc.devRef .tc main_arg5) = m ((c : Thread nD τ).loc main_arg5) :=
  (W6_of_ne m ρ c main_arg5 (by decide)).trans (at5_arg5 m ρ c)

theorem at6_arg6 : W6 m ρ c (Proc.devRef .tc main_arg6) = m ((c : Thread nD τ).loc main_arg6) :=
  (W6_of_ne m ρ c main_arg6 (by decide)).trans (at5_arg6 m ρ c)

theorem at6_arg7 : W6 m ρ c (Proc.devRef .tc main_arg7) = m ((c : Thread nD τ).loc main_arg7) :=
  (W6_of_ne m ρ c main_arg7 (by decide)).trans (at5_arg7 m ρ c)

/-! ## The third host stretch (region 2's entry) -/

theorem at7_v3 : W7 m ρ c (Proc.devRef .tc main_v3) = dst (m ((c : Thread nD τ).loc main_arg1)) := by
  show StableHlo.after hostOps2 (W6 m ρ c) (Proc.devRef .tc main_v3) = _
  after_results_simp
  exact at6_v3 m ρ c

theorem at7_v6 : W7 m ρ c (Proc.devRef .tc main_v6) = src (m ((c : Thread nD τ).loc main_arg1)) := by
  show StableHlo.after hostOps2 (W6 m ρ c) (Proc.devRef .tc main_v6) = _
  after_results_simp
  exact at6_v6 m ρ c

theorem at7_v29 : W7 m ρ c (Proc.devRef .tc main_v29) = norm (F := F) (m ((c : Thread nD τ).loc main_arg1)) := by
  show StableHlo.after hostOps2 (W6 m ρ c) (Proc.devRef .tc main_v29) = _
  after_results_simp
  exact at6_v29 m ρ c

theorem at7_arg6 : W7 m ρ c (Proc.devRef .tc main_arg6) = m ((c : Thread nD τ).loc main_arg6) := by
  show StableHlo.after hostOps2 (W6 m ρ c) (Proc.devRef .tc main_arg6) = _
  after_results_simp
  exact at6_arg6 m ρ c

theorem at7_arg7 : W7 m ρ c (Proc.devRef .tc main_arg7) = m ((c : Thread nD τ).loc main_arg7) := by
  show StableHlo.after hostOps2 (W6 m ρ c) (Proc.devRef .tc main_arg7) = _
  after_results_simp
  exact at6_arg7 m ρ c

/-- The stretch aggregates over the graph whatever table the region before it left. -/
theorem agg7 (t : FVec F S100000x128 .f32) (h : W6 m ρ c (Proc.devRef .tc main_v45) = t) :
    W7 m ρ c (Proc.devRef .tc main_v58) = agg128 (F := F) (m ((c : Thread nD τ).loc main_arg1)) t := by
  show StableHlo.after hostOps2 (W6 m ρ c) (Proc.devRef .tc main_v58) = _
  after_results_simp
  rw [at6_v3, at6_v6, at6_v29, h]
  rfl

/-- … and lays the layer's bias out as a one-row array. -/
theorem row7 : W7 m ρ c (Proc.devRef .tc main_v59) = shapeCast S1x128 (m ((c : Thread nD τ).loc main_arg5)) Facts₀.shapeCasts_S128_S1x128 := by
  show StableHlo.after hostOps2 (W6 m ρ c) (Proc.devRef .tc main_v59) = _
  after_results_simp
  rw [at6_arg5]
  rfl

/-! ## Through region 2 -/

theorem at8_v3 : W8 m ρ c (Proc.devRef .tc main_v3) = dst (m ((c : Thread nD τ).loc main_arg1)) :=
  (W8_of_ne m ρ c main_v3 (by decide)).trans (at7_v3 m ρ c)

theorem at8_v6 : W8 m ρ c (Proc.devRef .tc main_v6) = src (m ((c : Thread nD τ).loc main_arg1)) :=
  (W8_of_ne m ρ c main_v6 (by decide)).trans (at7_v6 m ρ c)

theorem at8_v29 : W8 m ρ c (Proc.devRef .tc main_v29) = norm (F := F) (m ((c : Thread nD τ).loc main_arg1)) :=
  (W8_of_ne m ρ c main_v29 (by decide)).trans (at7_v29 m ρ c)

theorem at8_arg7 : W8 m ρ c (Proc.devRef .tc main_arg7) = m ((c : Thread nD τ).loc main_arg7) :=
  (W8_of_ne m ρ c main_arg7 (by decide)).trans (at7_arg7 m ρ c)

/-! ## The last host stretch (region 3's entry) -/

/-- The stretch aggregates over the graph whatever table the region before it left. -/
theorem agg9 (t : FVec F S100000x64 .f32) (h : W8 m ρ c (Proc.devRef .tc main_v60) = t) :
    W9 m ρ c (Proc.devRef .tc main_v73) = agg64 (F := F) (m ((c : Thread nD τ).loc main_arg1)) t := by
  show StableHlo.after hostOps3 (W8 m ρ c) (Proc.devRef .tc main_v73) = _
  after_results_simp
  rw [at8_v3, at8_v6, at8_v29, h]
  rfl

/-- … and lays the layer's bias out as a one-row array. -/
theorem row9 : W9 m ρ c (Proc.devRef .tc main_v74) = shapeCast S1x64 (m ((c : Thread nD τ).loc main_arg7)) Facts₀.shapeCasts_S64_S1x64 := by
  show StableHlo.after hostOps3 (W8 m ρ c) (Proc.devRef .tc main_v74) = _
  after_results_simp
  rw [at8_arg7]
  rfl

end Stretches

/-! # The regions' arithmetic, at the ideal values -/

section Layers

variable (m : (ℓ : Loc nD τ sig) → Buf (Elt Ideal) ℓ) (ρ : Dev nD → PrngReg) (c : Dev nD)

/-- The first dense product. -/
def t0 : S100000x128.Idx → EReal := prod (m ((c : Thread nD τ).loc main_arg0) : S100000x128.Idx → EReal) (m ((c : Thread nD τ).loc main_arg2) : S128x128.Idx → EReal)
/-- Its aggregation over the graph, … -/
def a0 : S100000x128.Idx → EReal := agg128 (F := Ideal) (m ((c : Thread nD τ).loc main_arg1)) (t0 m c)
/-- … the first bias as one row, … -/
def row0 : S1x128.Idx → EReal := shapeCast S1x128 (m ((c : Thread nD τ).loc main_arg3)) Facts₀.shapeCasts_S128_S1x128
/-- … and the second dense product, of the clamped, biased first aggregation. -/
def t1 : S100000x128.Idx → EReal := prod (rowBiasRelu (a0 m c) (row0 m c)) (m ((c : Thread nD τ).loc main_arg4) : S128x128.Idx → EReal)
def a1 : S100000x128.Idx → EReal := agg128 (F := Ideal) (m ((c : Thread nD τ).loc main_arg1)) (t1 m c)
def row1 : S1x128.Idx → EReal := shapeCast S1x128 (m ((c : Thread nD τ).loc main_arg5)) Facts₀.shapeCasts_S128_S1x128
/-- The third dense product. -/
def t2 : S100000x64.Idx → EReal := prod (rowBiasRelu (a1 m c) (row1 m c)) (m ((c : Thread nD τ).loc main_arg6) : S128x64.Idx → EReal)
def a2 : S100000x64.Idx → EReal := agg64 (F := Ideal) (m ((c : Thread nD τ).loc main_arg1)) (t2 m c)
def row2 : S1x64.Idx → EReal := shapeCast S1x64 (m ((c : Thread nD τ).loc main_arg7)) Facts₀.shapeCasts_S64_S1x64

/-- Region 0 leaves the first dense product in its output array. -/
theorem at4_v30 : W4 m ρ c (Proc.devRef .tc main_v30) = t0 m c :=
  (W4_arr m ρ c 2).trans ((Region0.final (V3 m ρ) c).trans (by
    show prod (W3 m ρ c (Proc.devRef .tc main_arg0)) (W3 m ρ c (Proc.devRef .tc main_arg2)) = _
    rw [at3_arg0, at3_arg2]; rfl))

theorem at5_v43 : W5 m ρ c (Proc.devRef .tc main_v43) = a0 m c := agg5 m ρ c (t0 m c) (at4_v30 m ρ c)
theorem at5_v44 : W5 m ρ c (Proc.devRef .tc main_v44) = row0 m c := row5 m ρ c

/-- Region 1 leaves the second dense product in its output array. -/
theorem at6_v45 : W6 m ρ c (Proc.devRef .tc main_v45) = t1 m c :=
  (W6_arr m ρ c 3).trans ((Region1.final (V5 m ρ) c).trans (by
    show prod (rowBiasRelu (W5 m ρ c (Proc.devRef .tc main_v43)) (W5 m ρ c (Proc.devRef .tc main_v44))) (W5 m ρ c (Proc.devRef .tc main_arg4)) = _
    rw [at5_v43, at5_v44, at5_arg4]; rfl))

theorem at7_v58 : W7 m ρ c (Proc.devRef .tc main_v58) = a1 m c := agg7 m ρ c (t1 m c) (at6_v45 m ρ c)
theorem at7_v59 : W7 m ρ c (Proc.devRef .tc main_v59) = row1 m c := row7 m ρ c

/-- Region 2 leaves the third dense product in its output array. -/
theorem at8_v60 : W8 m ρ c (Proc.devRef .tc main_v60) = t2 m c :=
  (W8_arr m ρ c 3).trans ((Region2.final (V7 m ρ) c).trans (by
    show prod (rowBiasRelu (W7 m ρ c (Proc.devRef .tc main_v58)) (W7 m ρ c (Proc.devRef .tc main_v59))) (W7 m ρ c (Proc.devRef .tc main_arg6)) = _
    rw [at7_v58, at7_v59, at7_arg6]; rfl))

theorem at9_v73 : W9 m ρ c (Proc.devRef .tc main_v73) = a2 m c := agg9 m ρ c (t2 m c) (at8_v60 m ρ c)
theorem at9_v74 : W9 m ρ c (Proc.devRef .tc main_v74) = row2 m c := row9 m ρ c

/-- The last region leaves, in the result buffer, the third aggregation plus the last bias row: the network of the
    arguments as launched. -/
theorem result : W10 m ρ c (Proc.devRef .tc main_v75)
    = net (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) :=
  (W10_arr m ρ c 2).trans ((Region3.final (V9 m ρ) c).trans (by
    show rowBias (W9 m ρ c (Proc.devRef .tc main_v73)) (W9 m ρ c (Proc.devRef .tc main_v74)) = _
    rw [at9_v73, at9_v74]; rfl))

end Layers

end Cert.KernelIdeal.Boundaries

end
-- ==== Proof.RefSide.lean ====
/-
  The reference program's result is the network.

  The reference's run ends with its result buffer at one long term: the composition of its host operations over the
  arguments. Its graph part is, operation for operation, the kernel program's (`Graph`); between the aggregations
  it has a `dot_general` where the kernel program has a grid of matrix products, and a bias vector broadcast over the
  rows, an add and a `maximum` with a broadcast zero where the kernel fuses them into the next product. On the
  extended reals a `dot_general` over one contracted axis is the plain product (rows times columns), and the host's
  bias-add-clamp is, entry by entry, the kernel's: the term is the network.
-/
import proofs.«126798_j54726473286012_1_alg».proof.Proof.RefRun
import proofs.«126798_j54726473286012_1_alg».proof.Proof.Network
import proofs.«126798_j54726473286012_1_alg».proof.Proof.LibMatProd
import proofs.«126798_j54726473286012_1_alg».proof.Proof.LibBiasRelu
import proofs.«126798_j54726473286012_1_alg».proof.Proof.LibRowBias
import Idealize.ShloMosaic.Lib.ValueIdx
import Idealize.ShloMosaic.Lib.ValueLayout

set_option maxRecDepth 16384

noncomputable section

namespace Cert.RefSide

open Idealize.ShloMosaic Idealize.ShloMosaic.ValueIdx Idealize.ShloMosaic.TcCoe Idealize.SL.Sem
open Cert.KernelIdeal Cert.KernelIdeal.Graph Cert.KernelIdeal.Bodies Cert.KernelIdeal.Network
open Cert.Lib.MatProd Cert.Lib.BiasRelu Cert.Lib.RowBias

/-! ## The reference's two contraction records: one contracted axis, columns against rows -/

theorem r128_l0 (j : S100000x128.Idx) (q : Cert.ReferenceIdeal.dot_S100000x128_S128x128_S100000x128_1_0_0_1_n_n.contr.Idx) : (Cert.ReferenceIdeal.dot_S100000x128_S128x128_S100000x128_1_0_0_1_n_n.lhsIdx j q 0).val = (j 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem r128_l1 (j : S100000x128.Idx) (q : Cert.ReferenceIdeal.dot_S100000x128_S128x128_S100000x128_1_0_0_1_n_n.contr.Idx) : (Cert.ReferenceIdeal.dot_S100000x128_S128x128_S100000x128_1_0_0_1_n_n.lhsIdx j q 1).val = (q ⟨0, by decide⟩).val :=
  Cert.ReferenceIdeal.dot_S100000x128_S128x128_S100000x128_1_0_0_1_n_n.lhsIdx_val_of_single rfl j q
theorem r128_r0 (j : S100000x128.Idx) (q : Cert.ReferenceIdeal.dot_S100000x128_S128x128_S100000x128_1_0_0_1_n_n.contr.Idx) : (Cert.ReferenceIdeal.dot_S100000x128_S128x128_S100000x128_1_0_0_1_n_n.rhsIdx j q 0).val = (q ⟨0, by decide⟩).val :=
  Cert.ReferenceIdeal.dot_S100000x128_S128x128_S100000x128_1_0_0_1_n_n.rhsIdx_val_of_single rfl j q
theorem r128_r1 (j : S100000x128.Idx) (q : Cert.ReferenceIdeal.dot_S100000x128_S128x128_S100000x128_1_0_0_1_n_n.contr.Idx) : (Cert.ReferenceIdeal.dot_S100000x128_S128x128_S100000x128_1_0_0_1_n_n.rhsIdx j q 1).val = (j 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

theorem r64_l0 (j : S100000x64.Idx) (q : Cert.ReferenceIdeal.dot_S100000x128_S128x64_S100000x64_1_0_0_1_n_n.contr.Idx) : (Cert.ReferenceIdeal.dot_S100000x128_S128x64_S100000x64_1_0_0_1_n_n.lhsIdx j q 0).val = (j 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem r64_l1 (j : S100000x64.Idx) (q : Cert.ReferenceIdeal.dot_S100000x128_S128x64_S100000x64_1_0_0_1_n_n.contr.Idx) : (Cert.ReferenceIdeal.dot_S100000x128_S128x64_S100000x64_1_0_0_1_n_n.lhsIdx j q 1).val = (q ⟨0, by decide⟩).val :=
  Cert.ReferenceIdeal.dot_S100000x128_S128x64_S100000x64_1_0_0_1_n_n.lhsIdx_val_of_single rfl j q
theorem r64_r0 (j : S100000x64.Idx) (q : Cert.ReferenceIdeal.dot_S100000x128_S128x64_S100000x64_1_0_0_1_n_n.contr.Idx) : (Cert.ReferenceIdeal.dot_S100000x128_S128x64_S100000x64_1_0_0_1_n_n.rhsIdx j q 0).val = (q ⟨0, by decide⟩).val :=
  Cert.ReferenceIdeal.dot_S100000x128_S128x64_S100000x64_1_0_0_1_n_n.rhsIdx_val_of_single rfl j q
theorem r64_r1 (j : S100000x64.Idx) (q : Cert.ReferenceIdeal.dot_S100000x128_S128x64_S100000x64_1_0_0_1_n_n.contr.Idx) : (Cert.ReferenceIdeal.dot_S100000x128_S128x64_S100000x64_1_0_0_1_n_n.rhsIdx j q 1).val = (j 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-! ## The reference's term, with its graph part folded into the graph functions -/

section Fold

variable {F : FTy → Type} [FloatOps F]

/-- The reference's result as its operations compose, the graph part named; at any float instance. -/
def refFormF (x : FVec F S100000x128 .f32) (e : IVec S2x1600000 32)
    (w0 : FVec F S128x128 .f32) (b0 : FVec F S128 .f32) (w1 : FVec F S128x128 .f32) (b1 : FVec F S128 .f32)
    (w2 : FVec F S128x64 .f32) (b2 : FVec F S64 .f32) : FVec F S100000x64 .f32 :=
  addf (agg64 (F := F) e
      (Host.dotGeneral Cert.ReferenceIdeal.dot_S100000x128_S128x64_S100000x64_1_0_0_1_n_n none
        (maximumf (addf (agg128 (F := F) e
            (Host.dotGeneral Cert.ReferenceIdeal.dot_S100000x128_S128x128_S100000x128_1_0_0_1_n_n none
              (maximumf (addf (agg128 (F := F) e (Host.dotGeneral Cert.ReferenceIdeal.dot_S100000x128_S128x128_S100000x128_1_0_0_1_n_n none x w0)) (broadcastInDim S100000x128 ![0, 1] Cert.ReferenceIdeal.Facts₀.bcast_S1x128_S100000x128_0_1 (broadcastInDim S1x128 ![1] Cert.ReferenceIdeal.Facts₀.bcast_S128_S1x128_1 b0))) (broadcastInDim S100000x128 ![] Cert.ReferenceIdeal.Facts₀.bcast_S_S100000x128 (constant (F := F) S_ .f32 0x00000000#32)))
              w1)) (broadcastInDim S100000x128 ![0, 1] Cert.ReferenceIdeal.Facts₀.bcast_S1x128_S100000x128_0_1 (broadcastInDim S1x128 ![1] Cert.ReferenceIdeal.Facts₀.bcast_S128_S1x128_1 b1))) (broadcastInDim S100000x128 ![] Cert.ReferenceIdeal.Facts₀.bcast_S_S100000x128 (constant (F := F) S_ .f32 0x00000000#32)))
        w2))
    (broadcastInDim S100000x64 ![0, 1] Cert.ReferenceIdeal.Facts₀.bcast_S1x64_S100000x64_0_1 (broadcastInDim S1x64 ![1] Cert.ReferenceIdeal.Facts₀.bcast_S64_S1x64_1 b2))

variable (m : (ℓ : Loc Cert.ReferenceIdeal.nD Cert.ReferenceIdeal.τ Cert.ReferenceIdeal.sig) → Buf (Elt F) ℓ)
  (c : Dev Cert.ReferenceIdeal.nD)

/-- The term the reference's run ends at is that form of its arguments: the same operations, term for term. -/
theorem res_eq_form :
    Cert.ReferenceIdeal.ValueP.res_main_v82 (F := F) m c
      = refFormF (F := F) (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7)) := by
  unfold Cert.ReferenceIdeal.ValueP.res_main_v82 refFormF
  rfl

end Fold

/-- Layer by layer the reference's form is the network. -/
theorem refForm_eq_net (x : FVec Ideal S100000x128 .f32) (e : IVec S2x1600000 32)
    (w0 : FVec Ideal S128x128 .f32) (b0 : FVec Ideal S128 .f32) (w1 : FVec Ideal S128x128 .f32) (b1 : FVec Ideal S128 .f32)
    (w2 : FVec Ideal S128x64 .f32) (b2 : FVec Ideal S64 .f32) :
    refFormF (F := Ideal) x e w0 b0 w1 b1 w2 b2 = net x e w0 b0 w1 b1 w2 b2 := by
  unfold refFormF net
  have d0 : Host.dotGeneral Cert.ReferenceIdeal.dot_S100000x128_S128x128_S100000x128_1_0_0_1_n_n none x w0 = prod x w0 :=
    dotGeneral_eq_prod Cert.ReferenceIdeal.dot_S100000x128_S128x128_S100000x128_1_0_0_1_n_n rfl rfl r128_l0 r128_l1 r128_r0 r128_r1 none x w0
  rw [d0]
  have c0 : maximumf (addf (agg128 (F := Ideal) e (prod x w0)) (broadcastInDim S100000x128 ![0, 1] Cert.ReferenceIdeal.Facts₀.bcast_S1x128_S100000x128_0_1 (broadcastInDim S1x128 ![1] Cert.ReferenceIdeal.Facts₀.bcast_S128_S1x128_1 b0))) (broadcastInDim S100000x128 ![] Cert.ReferenceIdeal.Facts₀.bcast_S_S100000x128 (constant (F := Ideal) S_ .f32 0x00000000#32))
      = rowBiasRelu (agg128 (F := Ideal) e (prod x w0)) (shapeCast S1x128 b0 Facts₀.shapeCasts_S128_S1x128) :=
    (host_eq (by decide) (agg128 (F := Ideal) e (prod x w0)) b0 _ _ _).trans (biasRelu_eq_row _ b0 _)
  rw [c0]
  have d1 := dotGeneral_eq_prod (φ₁ := .f32) (φ₂ := .f32) Cert.ReferenceIdeal.dot_S100000x128_S128x128_S100000x128_1_0_0_1_n_n rfl rfl r128_l0 r128_l1 r128_r0 r128_r1 none
    (rowBiasRelu (agg128 (F := Ideal) e (prod x w0)) (shapeCast S1x128 b0 Facts₀.shapeCasts_S128_S1x128)) w1
  rw [d1]
  have c1 := (host_eq (by decide) (agg128 (F := Ideal) e (prod (rowBiasRelu (agg128 (F := Ideal) e (prod x w0)) (shapeCast S1x128 b0 Facts₀.shapeCasts_S128_S1x128)) w1)) b1
      Cert.ReferenceIdeal.Facts₀.bcast_S128_S1x128_1 Cert.ReferenceIdeal.Facts₀.bcast_S1x128_S100000x128_0_1 Cert.ReferenceIdeal.Facts₀.bcast_S_S100000x128).trans (biasRelu_eq_row _ b1 Facts₀.shapeCasts_S128_S1x128)
  rw [c1]
  have d2 := dotGeneral_eq_prod (φ₁ := .f32) (φ₂ := .f32) Cert.ReferenceIdeal.dot_S100000x128_S128x64_S100000x64_1_0_0_1_n_n rfl rfl r64_l0 r64_l1 r64_r0 r64_r1 none
    (rowBiasRelu (agg128 (F := Ideal) e (prod (rowBiasRelu (agg128 (F := Ideal) e (prod x w0)) (shapeCast S1x128 b0 Facts₀.shapeCasts_S128_S1x128)) w1)) (shapeCast S1x128 b1 Facts₀.shapeCasts_S128_S1x128)) w2
  rw [d2]
  exact bias_add_eq_row (by decide) _ b2 _ _ _

/-! ## The run's term is the network -/

variable (m : (ℓ : Loc Cert.ReferenceIdeal.nD Cert.ReferenceIdeal.τ Cert.ReferenceIdeal.sig) → Buf (Elt Ideal) ℓ)
  (c : Dev Cert.ReferenceIdeal.nD)

/-- The term the reference's run ends at, read at the ideal values, is the network of its arguments. -/
theorem res_eq_net :
    Cert.ReferenceIdeal.ValueP.res_main_v82 (F := Ideal) m c
      = net (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7)) :=
  (res_eq_form (F := Ideal) m c).trans (refForm_eq_net _ _ _ _ _ _ _ _)

end Cert.RefSide

end
-- ==== Proof.lean ====
/-
  A three-layer graph convolution over 100000 nodes and 1700000 edges (self loops included), computed two ways.

  Both programs build the same normalized adjacency from the edge list and aggregate with it three times; they
  differ only in the dense part. The kernel program runs each layer's matrix product as a grid of ten row blocks on
  the matrix unit, its operands rounded to bf16, and fuses the previous layer's bias and rectifier into the next
  product; the reference writes `x @ W`, `+ b`, `relu` on the host. On the extended reals a change of float format
  is the identity, a matrix unit's product into a zero accumulator and the host's `dot_general` are both rows times
  columns, a row of a product depends on the left operand through that row only, and bias and rectifier act entry
  by entry: so every block the kernel writes is a block of the one function the reference computes, the blocks
  tile the rows, and layer by layer the two results are the same function of the eight arguments. No law that
  could fail at an infinity is used (only that the same operations are applied to equal operands), so the
  precondition is never opened.

  `Named` restates the kernel program's run with its result array named; `Region0` … `Region3` give each grid's output
  array as one function of its entry arrays (over `Bodies`, what one grid point stores); `Graph` names the shared
  aggregation; `Boundaries` follows the buffers from the launch to the result; `RefSide` reads the reference's term
  as the same network (`Network`).
-/
import proofs.«126798_j54726473286012_1_alg».proof.Defs
import proofs.«126798_j54726473286012_1_alg».proof.Proof.Gen.Kernel
import proofs.«126798_j54726473286012_1_alg».proof.Proof.Gen.Kernel.Frame
import proofs.«126798_j54726473286012_1_alg».proof.Proof.Gen.KernelIdeal
import proofs.«126798_j54726473286012_1_alg».proof.Proof.Gen.KernelIdeal.Frame
import proofs.«126798_j54726473286012_1_alg».proof.Proof.Gen.ReferenceIdeal
import proofs.«126798_j54726473286012_1_alg».proof.Proof.Gen.Pre_finite_inputs
import proofs.«126798_j54726473286012_1_alg».proof.Proof.Named
import proofs.«126798_j54726473286012_1_alg».proof.Proof.Boundaries
import proofs.«126798_j54726473286012_1_alg».proof.Proof.RefRun
import proofs.«126798_j54726473286012_1_alg».proof.Proof.RefSide

noncomputable section

namespace Cert.Proof

open Idealize.ShloMosaic Idealize.ShloMosaic.TcCoe Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- At the ideal values, from memories that agree on the arguments, both programs end with the network of the
    arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Network.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Boundaries.result m ρ c), (h c).2⟩) (Cert.KernelIdeal.Named.run m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.RefSide.res_eq_net m' c, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
